-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : IVec S8192x16384 32) (main_arg1 : FVec F S16384x256 .f32) : IVec S_ 1 :=
  let main_v0 : FVec F S16384x256 .f32 := Host.absf main_arg1
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  main_v3
-- ==== Kernel.lean ====
abbrev S8192x16384 : Shape := ⟨2, ![8192, 16384]⟩
abbrev S16384x256 : Shape := ⟨2, ![16384, 256]⟩
abbrev S8192x256 : Shape := ⟨2, ![8192, 256]⟩
abbrev S512x4096 : Shape := ⟨2, ![512, 4096]⟩
abbrev S512x256 : Shape := ⟨2, ![512, 256]⟩
abbrev S512x1 : Shape := ⟨2, ![512, 1]⟩
abbrev S4096x256 : Shape := ⟨2, ![4096, 256]⟩
abbrev S512 : Shape := ⟨1, ![512]⟩

abbrev nBuf : Space → Nat
  | .hbm => 4
  | .vmem => 7
  | .smem => 0
  | _ => 0

abbrev bufTy : (tb : Table) → Fin (tcTables nBuf tb) → BufTy
  | .hbm, ⟨0, _⟩ => ⟨S8192x16384, .i32⟩
  | .hbm, ⟨1, _⟩ => ⟨S16384x256, .f32⟩
  | .hbm, ⟨2, _⟩ => ⟨S16384x256, .bf16⟩
  | .hbm, ⟨3, _⟩ => ⟨S8192x256, .f32⟩
  | .local _ .vmem, ⟨0, _⟩ => ⟨S512x4096, .i32⟩
  | .local _ .vmem, ⟨1, _⟩ => ⟨S512x4096, .i32⟩
  | .local _ .vmem, ⟨2, _⟩ => ⟨S16384x256, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x1, .f32⟩
  | _, _ => ⟨S8192x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c4096_i32 : BitVec 32 := 4096#32
  let v9 : BitVec 32 := Scalar.muli arg1 c4096_i32
  v9
def k0_off1 (i : grid0.Coords) : Fin 2 → Nat :=
  let arg1 : BitVec 32 := BitVec.ofNat 32 (i 1).val
  let c4096_i32 : BitVec 32 := 4096#32
  let v9 : BitVec 32 := Scalar.muli arg1 c4096_i32
  let v10 : BitVec 32 := v9
  let v11 : Index := Scalar.indexCast v10
  let c0_3 : Index := 0#32
  ![v11.toNat, 0]
def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  natLt_1_32 : 1 < 32
  h_S4096x256 : 0 < S4096x256.numel
  shapeCasts_S4096x256_S4096x256 : S4096x256.ShapeCasts S4096x256
  reduces_S512x4096_S512 : S512x4096.Reduces [1] S512
  shapeCasts_S512_S512x1 : S512.ShapeCasts S512x1
  broadcasts_S512x1_S512x256 : S512x1.Broadcasts S512x256
  dot_S512x4096_S4096x256_S512x256_1_0_0_1_n_n_wf : DotDims.WF S512x4096 S4096x256 S512x256 [1] [0] [0] [1] [] []
  hrank0 : 0 < grid0.rank
  k0_mult1_dvd : ∀ i : grid0.Coords, 4096 ∣ (k0_mult1 i).toNat
  k0_off1_inb : ∀ i : grid0.Coords, ∀ a, (k0_off1 i) a + S4096x256.size a ≤ S16384x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x16384.size a
  hwx0_0 : ∀ i : grid0.Coords, EltTy.bits .i32 = 32 ∨ (Rect.block (s := S8192x16384) S512x4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x256.size a ≤ S16384x256.size a
  hwx0_1 : ∀ i : grid0.Coords, EltTy.bits .bf16 = 32 ∨ (Rect.block (s := S16384x256) S16384x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x16384 : Shape := ⟨2, ![8192, 16384]⟩
abbrev S16384x256 : Shape := ⟨2, ![16384, 256]⟩
abbrev S_ : Shape := ⟨0, ![]⟩
abbrev S8192x256 : Shape := ⟨2, ![8192, 256]⟩
abbrev S8192 : Shape := ⟨1, ![8192]⟩
abbrev S8192x1 : Shape := ⟨2, ![8192, 1]⟩

abbrev nBuf : Space → Nat
  | .hbm => 15
  | .vmem => 0
  | .smem => 0
  | _ => 0

abbrev bufTy : (tb : Table) → Fin (tcTables nBuf tb) → BufTy
  | .hbm, ⟨0, _⟩ => ⟨S8192x16384, .i32⟩
  | .hbm, ⟨1, _⟩ => ⟨S16384x256, .f32⟩
  | .hbm, ⟨2, _⟩ => ⟨S_, .i32⟩
  | .hbm, ⟨3, _⟩ => ⟨S8192x16384, .i32⟩
  | .hbm, ⟨4, _⟩ => ⟨S8192x16384, .i1⟩
  | .hbm, ⟨5, _⟩ => ⟨S8192x16384, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x256, .f32⟩
  | .hbm, ⟨14, _⟩ => ⟨S8192x256, .f32⟩
  | _, _ => ⟨S8192x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S8192x16384 : S_.BroadcastsInDim S8192x16384 (![] : Fin 0 → Fin S8192x16384.rank)
  reducesTo_S8192x16384_S8192_d1 : S8192x16384.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  dot_S8192x16384_S16384x256_S8192x256_1_0_0_1_n_n_wf : DotDims.WF S8192x16384 S16384x256 S8192x256 [1] [0] [0] [1] [] []

variable [Facts₀]

def dot_S8192x16384_S16384x256_S8192x256_1_0_0_1_n_n : DotDims S8192x16384 S16384x256 S8192x256 where
  lhsContracting := [1]
  rhsContracting := [0]
  lhsNonContracting := [0]
  rhsNonContracting := [1]
  lhsBatch := []
  rhsBatch := []
  wf := dot_S8192x16384_S16384x256_S8192x256_1_0_0_1_n_n_wf

class Facts : Prop extends Facts₀ where

variable [Facts]
-- ==== Proof.Found.lean ====
/-
  What the kernel body leaves behind at one grid point, case by case, as pure terms of what it loaded.

  The body keeps two accumulators between grid points: a [512, 256] block of partial row sums and a [512, 1] column of
  partial counts. At every point it adds to the first the product of the point's indicator block with 4096 rows of the
  table (`k0_pay4`), and to the second the indicator block's row sums (`k0_pay5`). At the first point of a row block
  the accumulators are first set to zero (`k0_pay1`, `k0_pay2`), so what the additions read back is zero. At the last
  point of a row block the quotient of the two fresh accumulators (`k0_pay6`) is stored to the output block.
  Every store covers its whole buffer, so what a buffer holds afterwards is the payload of its last store, and a
  load after a store reads that store's payload.
-/
import proofs.«169096_j24008867184743_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem hz : (![0, 0] : Fin 2 → Nat) = fun _ => 0 := funext fun a => by fin_cases a <;> rfl

/-- The 4096 rows of the resident table block that the body loads at grid point `i`: rows `4096·k …` for `k` the
    point's second coordinate. -/
def tableRows (i : grid0.Coords) (x1 : Vec F S16384x256 .bf16) : Vec F S4096x256 .bf16 :=
  View.ld x1 (Rect.unit (s := S16384x256) (k0_off1 i) S4096x256.size (Gen.k0_off1_inb i))

/-! ## The first point of a row block: zero, then one step -/

theorem sums_first (c : Dev nD) (i : grid0.Coords) (a2 : Memref sig .tc .vmem S512x4096 .i32) (h2 : a2.IsWhole)
    (a3 : Memref sig .tc .vmem S16384x256 .bf16) (h3 : a3.IsWhole) (a4 : Memref sig .tc .vmem S512x256 .f32) (h4 : a4.IsWhole)
    (a5 : Memref sig .tc .vmem S512x256 .f32) (h5 : a5.IsWhole) (a6 : Memref sig .tc .vmem S512x1 .f32) (h6 : a6.IsWhole)
    (hc0 : cond0_0 i) (hc1 : ¬cond0_1 i) (x0 : Vec F S512x4096 .i32) (x1 : Vec F S16384x256 .bf16) :
    sout0_A_0 c i a2 h2 a3 h3 a4 h4 a5 h5 a6 h6 hc0 hc1 x0 x1 = k0_pay4 x0 (tableRows i x1) k0_pay1 := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S512x256) hz, View.readCov_unit_zero (S := S512x256) _ hz]
  simp only [View.readAt_eq_ld, h2.read_unread, h3.read_unread, View.ld_unit_zero (S := S512x4096) hz]
  rfl

theorem count_first (c : Dev nD) (i : grid0.Coords) (a2 : Memref sig .tc .vmem S512x4096 .i32) (h2 : a2.IsWhole)
    (a3 : Memref sig .tc .vmem S16384x256 .bf16) (h3 : a3.IsWhole) (a4 : Memref sig .tc .vmem S512x256 .f32) (h4 : a4.IsWhole)
    (a5 : Memref sig .tc .vmem S512x256 .f32) (h5 : a5.IsWhole) (a6 : Memref sig .tc .vmem S512x1 .f32) (h6 : a6.IsWhole)
    (hc0 : cond0_0 i) (hc1 : ¬cond0_1 i) (x0 : Vec F S512x4096 .i32) (x1 : Vec F S16384x256 .bf16) :
    sout0_A_1 c i a2 h2 a3 h3 a4 h4 a5 h5 a6 h6 hc0 hc1 x0 x1 = k0_pay5 x0 k0_pay2 := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S512x1) hz, View.readCov_unit_zero (S := S512x1) _ hz]
  simp only [View.readAt_eq_ld, h2.read_unread, h3.read_unread, View.ld_unit_zero (S := S512x4096) hz]

/-! ## A middle point: one step onto what the point before left -/

theorem sums_middle (c : Dev nD) (i : grid0.Coords) (a2 : Memref sig .tc .vmem S512x4096 .i32) (h2 : a2.IsWhole)
    (a3 : Memref sig .tc .vmem S16384x256 .bf16) (h3 : a3.IsWhole) (a4 : Memref sig .tc .vmem S512x256 .f32) (h4 : a4.IsWhole)
    (a5 : Memref sig .tc .vmem S512x256 .f32) (h5 : a5.IsWhole) (a6 : Memref sig .tc .vmem S512x1 .f32) (h6 : a6.IsWhole)
    (hc0 : ¬cond0_0 i) (hc1 : ¬cond0_1 i) (x0 : Vec F S512x4096 .i32) (x1 : Vec F S16384x256 .bf16) (xs0 : Vec F S512x256 .f32) (xs1 : Vec F S512x1 .f32) :
    sout0_B_0 c i a2 h2 a3 h3 a4 h4 a5 h5 a6 h6 hc0 hc1 x0 x1 xs0 xs1 = k0_pay4 x0 (tableRows i x1) xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  rw [View.canon_unit_zero hz]
  simp only [View.readAt_eq_ld, h2.read_unread, h3.read_unread, h5.read_unread, h6.read_unread,
    View.ld_unit_zero (S := S512x4096) hz, View.ld_unit_zero (S := S512x256) hz, View.ld_unit_zero (S := S512x1) hz]
  rfl

theorem count_middle (c : Dev nD) (i : grid0.Coords) (a2 : Memref sig .tc .vmem S512x4096 .i32) (h2 : a2.IsWhole)
    (a3 : Memref sig .tc .vmem S16384x256 .bf16) (h3 : a3.IsWhole) (a4 : Memref sig .tc .vmem S512x256 .f32) (h4 : a4.IsWhole)
    (a5 : Memref sig .tc .vmem S512x256 .f32) (h5 : a5.IsWhole) (a6 : Memref sig .tc .vmem S512x1 .f32) (h6 : a6.IsWhole)
    (hc0 : ¬cond0_0 i) (hc1 : ¬cond0_1 i) (x0 : Vec F S512x4096 .i32) (x1 : Vec F S16384x256 .bf16) (xs0 : Vec F S512x256 .f32) (xs1 : Vec F S512x1 .f32) :
    sout0_B_1 c i a2 h2 a3 h3 a4 h4 a5 h5 a6 h6 hc0 hc1 x0 x1 xs0 xs1 = k0_pay5 x0 xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  rw [View.canon_unit_zero hz]
  simp only [View.readAt_eq_ld, h2.read_unread, h3.read_unread, h5.read_unread, h6.read_unread,
    View.ld_unit_zero (S := S512x4096) hz, View.ld_unit_zero (S := S512x256) hz, View.ld_unit_zero (S := S512x1) hz]

/-! ## The last point of a row block: one step, then the quotient to the output block -/

theorem sums_last (c : Dev nD) (i : grid0.Coords) (a2 : Memref sig .tc .vmem S512x4096 .i32) (h2 : a2.IsWhole)
    (a3 : Memref sig .tc .vmem S16384x256 .bf16) (h3 : a3.IsWhole) (a4 : Memref sig .tc .vmem S512x256 .f32) (h4 : a4.IsWhole)
    (a5 : Memref sig .tc .vmem S512x256 .f32) (h5 : a5.IsWhole) (a6 : Memref sig .tc .vmem S512x1 .f32) (h6 : a6.IsWhole)
    (hc0 : ¬cond0_0 i) (hc1 : cond0_1 i) (x0 : Vec F S512x4096 .i32) (x1 : Vec F S16384x256 .bf16) (xs0 : Vec F S512x256 .f32) (xs1 : Vec F S512x1 .f32) :
    sout0_C_0 c i a2 h2 a3 h3 a4 h4 a5 h5 a6 h6 hc0 hc1 x0 x1 xs0 xs1 = k0_pay4 x0 (tableRows i x1) xs0 := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero hz]
  simp only [View.readAt_eq_ld, h2.read_unread, h3.read_unread, h5.read_unread, h6.read_unread,
    View.ld_unit_zero (S := S512x4096) hz, View.ld_unit_zero (S := S512x256) hz, View.ld_unit_zero (S := S512x1) hz]
  rfl

theorem count_last (c : Dev nD) (i : grid0.Coords) (a2 : Memref sig .tc .vmem S512x4096 .i32) (h2 : a2.IsWhole)
    (a3 : Memref sig .tc .vmem S16384x256 .bf16) (h3 : a3.IsWhole) (a4 : Memref sig .tc .vmem S512x256 .f32) (h4 : a4.IsWhole)
    (a5 : Memref sig .tc .vmem S512x256 .f32) (h5 : a5.IsWhole) (a6 : Memref sig .tc .vmem S512x1 .f32) (h6 : a6.IsWhole)
    (hc0 : ¬cond0_0 i) (hc1 : cond0_1 i) (x0 : Vec F S512x4096 .i32) (x1 : Vec F S16384x256 .bf16) (xs0 : Vec F S512x256 .f32) (xs1 : Vec F S512x1 .f32) :
    sout0_C_1 c i a2 h2 a3 h3 a4 h4 a5 h5 a6 h6 hc0 hc1 x0 x1 xs0 xs1 = k0_pay5 x0 xs1 := by
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_unit_zero hz]
  simp only [View.readAt_eq_ld, h2.read_unread, h3.read_unread, h5.read_unread, h6.read_unread,
    View.ld_unit_zero (S := S512x4096) hz, View.ld_unit_zero (S := S512x256) hz, View.ld_unit_zero (S := S512x1) hz]

theorem out_last (c : Dev nD) (i : grid0.Coords) (a2 : Memref sig .tc .vmem S512x4096 .i32) (h2 : a2.IsWhole)
    (a3 : Memref sig .tc .vmem S16384x256 .bf16) (h3 : a3.IsWhole) (a4 : Memref sig .tc .vmem S512x256 .f32) (h4 : a4.IsWhole)
    (a5 : Memref sig .tc .vmem S512x256 .f32) (h5 : a5.IsWhole) (a6 : Memref sig .tc .vmem S512x1 .f32) (h6 : a6.IsWhole)
    (hc0 : ¬cond0_0 i) (hc1 : cond0_1 i) (x0 : Vec F S512x4096 .i32) (x1 : Vec F S16384x256 .bf16) (xs0 : Vec F S512x256 .f32) (xs1 : Vec F S512x1 .f32) :
    out0_C_2 c i a2 h2 a3 h3 a4 h4 a5 h5 a6 h6 hc0 hc1 x0 x1 xs0 xs1 = k0_pay6 (k0_pay4 x0 (tableRows i x1) xs0) (k0_pay5 x0 xs1) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero hz, View.readCov_unit_zero (S := S512x256) _ hz, View.readCov_unit_zero (S := S512x1) _ hz]
  simp only [View.readAt_eq_ld, h2.read_unread, h3.read_unread, h5.read_unread, h6.read_unread,
    View.ld_unit_zero (S := S512x4096) hz, View.ld_unit_zero (S := S512x256) hz, View.ld_unit_zero (S := S512x1) hz]
  rfl

end Cert.KernelIdeal.Found

end
-- ==== Proof.Carried.lean ====
/-
  The two accumulators from point to point, and a row block's output as a four-step chain.

  The grid is 16 row blocks × 4 chunks of the summed axis, visited row block by row block: point `4q + k` is chunk `k`
  of row block `q`. The accumulators are reset at the points ≡ 0 (mod 4), stepped at every point, and at the points
  ≡ 3 (mod 4) their quotient is written to the output block. So the block written at point `n + 3` (with `n ≡ 0`) is
      quotient (step₃ (step₂ (step₁ (step₀ zero)))) (count-step₃ (count-step₂ (count-step₁ (count-step₀ zero))))
  where step`ₖ` uses the words block and the table rows met at point `n + k`. Everything here is a statement about pure
  terms, at any float instance.
-/
import proofs.«169096_j24008867184743_2_alg».proof.Proof.Found

noncomputable section

open Idealize.ShloMosaic Idealize.ShloMosaic.TcCoe Idealize.SL.Sem

namespace Cert.KernelIdeal.Carried

open Cert.KernelIdeal Cert.KernelIdeal.Gen Cert.KernelIdeal.Found

variable {F : FTy → Type} [FloatOps F]
variable (m : (ℓ : Loc nD τ sig) → Buf (Elt F) ℓ)

/-- The block of words met at point `t`. -/
abbrev words (c : Dev nD) (t : Fin cfg0.N) : Vec F S512x4096 .i32 := iblk m c 0 t

/-- The 4096 table rows met at point `t`. -/
abbrev rows (c : Dev nD) (t : Fin cfg0.N) : Vec F S4096x256 .bf16 := tableRows (grid0.coords t) (iblk m c 1 t)

set_option maxHeartbeats 4000000 in
/-- At a point ≡ 0 (mod 4) the accumulators hold one step onto zero. -/
theorem reset (c : Dev nD) (t : Fin cfg0.N) (h0 : t.val % 4 = 0) :
    (outsAt0 m c t.val t.isLt).2 = (k0_pay4 (words m c t) (rows m c t) k0_pay1, k0_pay5 (words m c t) k0_pay2) := by
  have h1 : ¬t.val % 4 = 3 := by omega
  rw [outsAt0_A m c t h0 h1]
  dsimp only
  exact Prod.ext
    (sums_first c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t))
    (count_first c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t))

set_option maxHeartbeats 4000000 in
/-- At any other point they hold one step onto what the point before left. -/
theorem step (c : Dev nD) (t : Fin cfg0.N) (h0 : ¬t.val % 4 = 0) :
    (outsAt0 m c t.val t.isLt).2
      = (k0_pay4 (words m c t) (rows m c t) (outsAt0 m c (t.val - 1) (Nat.lt_of_le_of_lt (Nat.sub_le _ _) t.isLt)).2.1, k0_pay5 (words m c t) (outsAt0 m c (t.val - 1) (Nat.lt_of_le_of_lt (Nat.sub_le _ _) t.isLt)).2.2) := by
  by_cases h1 : t.val % 4 = 3
  · rw [outsAt0_C m c t h0 h1]
    dsimp only
    exact Prod.ext
      (sums_last c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2)
      (count_last c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2)
  · rw [outsAt0_B m c t h0 h1]
    dsimp only
    exact Prod.ext
      (sums_middle c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2)
      (count_middle c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2)

set_option maxHeartbeats 4000000 in
/-- At a point ≡ 3 (mod 4) the output block holds the quotient of the two fresh accumulators. -/
theorem written (c : Dev nD) (t : Fin cfg0.N) (h0 : ¬t.val % 4 = 0) (h1 : t.val % 4 = 3) :
    (outsAt0 m c t.val t.isLt).1
      = k0_pay6 (k0_pay4 (words m c t) (rows m c t) (outsAt0 m c (t.val - 1) (Nat.lt_of_le_of_lt (Nat.sub_le _ _) t.isLt)).2.1) (k0_pay5 (words m c t) (outsAt0 m c (t.val - 1) (Nat.lt_of_le_of_lt (Nat.sub_le _ _) t.isLt)).2.2) := by
  rw [outsAt0_C m c t h0 h1]
  dsimp only
  exact out_last c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-- The row sums of a row block after its four points: four steps onto zero, in point order. -/
def blockSums (c : Dev nD) (n : ℕ) (h : n + 1 + 1 + 1 < cfg0.N) : Vec F S512x256 .f32 :=
  k0_pay4 (words m c ⟨n + 1 + 1 + 1, h⟩) (rows m c ⟨n + 1 + 1 + 1, h⟩)
    (k0_pay4 (words m c ⟨n + 1 + 1, Nat.lt_of_succ_lt h⟩) (rows m c ⟨n + 1 + 1, Nat.lt_of_succ_lt h⟩)
      (k0_pay4 (words m c ⟨n + 1, Nat.lt_of_succ_lt (Nat.lt_of_succ_lt h)⟩) (rows m c ⟨n + 1, Nat.lt_of_succ_lt (Nat.lt_of_succ_lt h)⟩)
        (k0_pay4 (words m c ⟨n, Nat.lt_of_succ_lt (Nat.lt_of_succ_lt (Nat.lt_of_succ_lt h))⟩) (rows m c ⟨n, Nat.lt_of_succ_lt (Nat.lt_of_succ_lt (Nat.lt_of_succ_lt h))⟩)
          k0_pay1)))

/-- The counts of a row block after its four points. -/
def blockCount (c : Dev nD) (n : ℕ) (h : n + 1 + 1 + 1 < cfg0.N) : Vec F S512x1 .f32 :=
  k0_pay5 (words m c ⟨n + 1 + 1 + 1, h⟩)
    (k0_pay5 (words m c ⟨n + 1 + 1, Nat.lt_of_succ_lt h⟩)
      (k0_pay5 (words m c ⟨n + 1, Nat.lt_of_succ_lt (Nat.lt_of_succ_lt h)⟩)
        (k0_pay5 (words m c ⟨n, Nat.lt_of_succ_lt (Nat.lt_of_succ_lt (Nat.lt_of_succ_lt h))⟩) k0_pay2)))

/-- The block written at the last point `n + 3` of a row block (`n ≡ 0`) is the quotient of the two four-step chains. -/
theorem block_written (c : Dev nD) (n : ℕ) (h : n + 1 + 1 + 1 < cfg0.N) (h0 : n % 4 = 0) :
    (outsAt0 m c (n + 1 + 1 + 1) h).1 = k0_pay6 (blockSums m c n h) (blockCount m c n h) := by
  have e3 := written m c ⟨n + 1 + 1 + 1, h⟩ (by show ¬(n + 1 + 1 + 1) % 4 = 0; omega) (by show (n + 1 + 1 + 1) % 4 = 3; omega)
  have e2 := step m c ⟨n + 1 + 1, Nat.lt_of_succ_lt h⟩ (by show ¬(n + 1 + 1) % 4 = 0; omega)
  have e1 := step m c ⟨n + 1, Nat.lt_of_succ_lt (Nat.lt_of_succ_lt h)⟩ (by show ¬(n + 1) % 4 = 0; omega)
  have e0 := reset m c ⟨n, Nat.lt_of_succ_lt (Nat.lt_of_succ_lt (Nat.lt_of_succ_lt h))⟩ h0
  refine e3.trans ?_
  unfold blockSums blockCount
  show k0_pay6 (k0_pay4 _ _ (outsAt0 m c (n + 1 + 1) _).2.1) (k0_pay5 _ (outsAt0 m c (n + 1 + 1) _).2.2) = _
  rw [show (outsAt0 m c (n + 1 + 1) _).2 = _ from e2]
  show k0_pay6 (k0_pay4 _ _ (k0_pay4 _ _ (outsAt0 m c (n + 1) _).2.1)) (k0_pay5 _ (k0_pay5 _ (outsAt0 m c (n + 1) _).2.2)) = _
  rw [show (outsAt0 m c (n + 1) _).2 = _ from e1]
  show k0_pay6 (k0_pay4 _ _ (k0_pay4 _ _ (k0_pay4 _ _ (outsAt0 m c n _).2.1))) (k0_pay5 _ (k0_pay5 _ (k0_pay5 _ (outsAt0 m c n _).2.2))) = _
  rw [show (outsAt0 m c n _).2 = _ from e0]

end Cert.KernelIdeal.Carried

end
-- ==== Proof.Spec.lean ====
/-
  The function both programs compute, stated once over literal shapes.

  For a table of words `X` [8192, 16384] and a table of extended reals `E` [16384, 256], write `ind w` for the
  indicator of a nonzero word (1 if `w ≠ 0`, else 0). Row `b` of the result is the indicator-weighted sum of the rows
  of `E`, divided by the number of nonzero words of the row plus a fixed small constant:

      meanEmbed X E (b, e) = (∑ v, ind X[b, v] · E[v, e]) / ((∑ v, ind X[b, v]) + ε).

  One side adds the 16384 terms of each sum in four consecutive chunks of 4096, starting from zero; the other adds them
  all at once. Addition of extended reals is commutative and associative, so the two agree (`sum_chunks`), whatever the
  entries are: no finiteness is used.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The indicator of a nonzero 32-bit word, as an extended real: the one-bit result of the comparison read unsigned. -/
def ind (w : BitVec 32) : EReal := (((IntOp.cmpi .ne w 0#32).toNat : ℝ) : EReal)

/-- The small constant added to the count: the binary32 value nearest to 10⁻⁶, the same word on both sides. -/
def eps : EReal := Ideal.ofBits .f32 0x358637BD#32

/-- The indicator-weighted row sum of `E` over the nonzero words of row `b` of `X`, divided by their number plus `eps`. -/
def meanEmbed (X : (⟨2, ![8192, 16384]⟩ : Shape).Idx → BitVec 32) (E : (⟨2, ![16384, 256]⟩ : Shape).Idx → EReal) :
    (⟨2, ![8192, 256]⟩ : Shape).Idx → EReal := fun j =>
  Ideal.div (∑ v : Fin 16384, ind (X (ix2 (j 0) v)) * E (ix2 v (j 1)))
    ((∑ v : Fin 16384, ind (X (ix2 (j 0) v))) + eps)

/-- The function at an index given by its two coordinates. -/
theorem meanEmbed_apply (X : (⟨2, ![8192, 16384]⟩ : Shape).Idx → BitVec 32) (E : (⟨2, ![16384, 256]⟩ : Shape).Idx → EReal)
    (b : Fin 8192) (e : Fin 256) :
    meanEmbed X E (ix2 b e)
      = Ideal.div (∑ v : Fin 16384, ind (X (ix2 b v)) * E (ix2 v e)) ((∑ v : Fin 16384, ind (X (ix2 b v))) + eps) := rfl

/-- Entry `u` of chunk `k` of an axis of 16384 = 4 · 4096 entries. -/
def chunkIdx (k : Fin 4) (u : Fin 4096) : Fin 16384 := ⟨4096 * k.val + u.val, by have := k.isLt; have := u.isLt; omega⟩

/-- A sum over 16384 entries is the sum of its four chunks of 4096, added in order onto zero. -/
theorem sum_chunks (f : Fin 16384 → EReal) :
    ∑ v : Fin 16384, f v
      = (((0 + ∑ u : Fin 4096, f (chunkIdx 0 u)) + ∑ u : Fin 4096, f (chunkIdx 1 u)) + ∑ u : Fin 4096, f (chunkIdx 2 u))
          + ∑ u : Fin 4096, f (chunkIdx 3 u) := by
  have e : ∑ v : Fin 16384, f v = ∑ p : Fin 4 × Fin 4096, f (chunkIdx p.1 p.2) := by
    rw [← Equiv.sum_comp (finProdFinEquiv : Fin 4 × Fin 4096 ≃ Fin 16384) f]
    refine Finset.sum_congr rfl fun p _ => congrArg f (Fin.ext ?_)
    show (finProdFinEquiv p).val = 4096 * p.1.val + p.2.val
    rw [finProdFinEquiv_apply_val]; omega
  rw [e, Fintype.sum_prod_type, Fin.sum_univ_four, zero_add]

/-- The one-bit comparison result widened to 32 bits and read as a signed integer is the bit read unsigned:
    0 or 1 either way. -/
theorem toInt_setWidth_bit (b : BitVec 1) : ((b.setWidth 32).toInt : ℝ) = (b.toNat : ℝ) := by
  have h : b = 0#1 ∨ b = 1#1 := by
    have := b.isLt
    rcases (show b.toNat = 0 ∨ b.toNat = 1 by omega) with h | h
    · exact Or.inl (BitVec.eq_of_toNat_eq h)
    · exact Or.inr (BitVec.eq_of_toNat_eq h)
  rcases h with rfl | rfl <;> simp

end Cert.Spec

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.PointValue.lean ====
/-
  The body's arithmetic at one grid point, read index by index over the extended reals.

  Write `ind w` for the indicator of a nonzero word. For the point's block of words `x` [512, 4096], the 4096 table
  rows `ev` [4096, 256] it meets, and the accumulators `acc`:
    one step of the row sums   (r, e) ↦ acc (r, e) + ∑ u, ind x[r, u] · ev[u, e]      (a matrix product into zero, added)
    one step of the counts     (r, 0) ↦ acc (r, 0) + ∑ u, ind x[r, u]                 (a row sum, kept as a column)
    the quotient               (r, e) ↦ sums (r, e) / (count (r, 0) + ε)              (the column broadcast along e)
  and the two zero blocks are zero. A change of float format is the identity on extended reals, and the comparison's
  bit, widened and read as a signed integer, is the bit itself.
-/
import proofs.«169096_j24008867184743_2_alg».proof.Proof.Gen.KernelIdeal.Skeleton
import proofs.«169096_j24008867184743_2_alg».proof.Proof.Spec
import proofs.«169096_j24008867184743_2_alg».proof.Proof.LibKeepdims
import Idealize.ShloMosaic.PureOps.Ideal.Laws
import Idealize.ShloMosaic.Lib.ValueIdx
import Idealize.ShloMosaic.Lib.Pipeline.Value

noncomputable section

open scoped BigOperators

namespace Cert.KernelIdeal.PointValue

open Cert.KernelIdeal Cert.KernelIdeal.Gen Idealize.ShloMosaic Idealize.ShloMosaic.ValueIdx Cert.Spec

/-- The zero block of row sums. -/
theorem zeroSums_apply (j : S512x256.Idx) : k0_pay1 (F := Ideal) j = 0 := by
  unfold k0_pay1
  simp only [shapeCast_self]
  exact Ideal.ofBits_zero_f32

/-- The zero column of counts. -/
theorem zeroCount_apply (j : S512x1.Idx) : k0_pay2 (F := Ideal) j = 0 := by
  unfold k0_pay2
  simp only [shapeCast_self]
  exact Ideal.ofBits_zero_f32

/-- The product's left operand index at output `(r, e)` and contraction entry `u` is `(r, u)`: its row coordinate. -/
theorem lhs_row (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl

/-- The product's right operand index at output `(r, e)` and contraction entry `u` is `(u, e)`: its column coordinate. -/
theorem rhs_col (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- One step of the row sums at `(r, e)`. -/
theorem sumsStep_apply (x : Vec Ideal S512x4096 .i32) (ev : FVec Ideal S4096x256 .bf16) (acc : FVec Ideal S512x256 .f32)
    (r : Fin 512) (e : Fin 256) :
    k0_pay4 (F := Ideal) x ev acc (ix2 r e) = acc (ix2 r e) + ∑ u : Fin 4096, ind (x (ix2 r u)) * ev (ix2 u e) := by
  unfold k0_pay4 k0_pay3
  simp only [shapeCast_self]
  refine (addf_apply _ _ _).trans (congrArg (acc (ix2 r e) + ·) ?_)
  refine (Ideal.matmul_constant_zero_apply dot_S512x4096_S4096x256_S512x256_1_0_0_1_n_n none _ _ (ix2 r e)).trans ?_
  rw [← Equiv.sum_comp (contrEquiv1 dot_S512x4096_S4096x256_S512x256_1_0_0_1_n_n 4096 rfl rfl).symm]
  refine Finset.sum_congr rfl fun u _ => ?_
  have hk := contrEquiv1_symm_val dot_S512x4096_S4096x256_S512x256_1_0_0_1_n_n 4096 rfl rfl u
  have el : dot_S512x4096_S4096x256_S512x256_1_0_0_1_n_n.lhsIdx (ix2 r e) ((contrEquiv1 dot_S512x4096_S4096x256_S512x256_1_0_0_1_n_n 4096 rfl rfl).symm u) = ix2 r u := funext fun a => Fin.ext (by
    match a with
    | ⟨0, _⟩ => exact lhs_row _ _
    | ⟨1, _⟩ => exact (dot_S512x4096_S4096x256_S512x256_1_0_0_1_n_n.lhsIdx_val_of_single rfl _ _).trans hk)
  have er : dot_S512x4096_S4096x256_S512x256_1_0_0_1_n_n.rhsIdx (ix2 r e) ((contrEquiv1 dot_S512x4096_S4096x256_S512x256_1_0_0_1_n_n 4096 rfl rfl).symm u) = ix2 u e := funext fun a => Fin.ext (by
    match a with
    | ⟨0, _⟩ => exact (dot_S512x4096_S4096x256_S512x256_1_0_0_1_n_n.rhsIdx_val_of_single rfl _ _).trans hk
    | ⟨1, _⟩ => exact rhs_col _ _)
  rw [el, er]
  show ((((IntOp.cmpi .ne (x (ix2 r u)) 0#32).setWidth 32).toInt : ℝ) : EReal) * ev (ix2 u e) = _
  unfold ind
  rw [toInt_setWidth_bit]

/-- One step of the counts at `(r, 0)`. -/
theorem countStep_apply (x : Vec Ideal S512x4096 .i32) (acc : FVec Ideal S512x1 .f32) (r : Fin 512) :
    k0_pay5 (F := Ideal) x acc (ix2 r (0 : Fin 1)) = acc (ix2 r (0 : Fin 1)) + ∑ u : Fin 4096, ind (x (ix2 r u)) := by
  unfold k0_pay5 k0_pay3
  simp only [shapeCast_self]
  refine (addf_apply _ _ _).trans (congrArg (acc (ix2 r (0 : Fin 1)) + ·) ?_)
  refine (Cert.LibKeepdims.shapeCast_a_a1_apply _ _ r (0 : Fin 1)).trans ?_
  refine (Ideal.multiReduction_add_single _ 0x00000000#32 _ _ _ (ix1 r)).trans ?_
  refine Finset.sum_congr rfl fun u _ => ?_
  have hl : reduces_S512x4096_S512.lift (ix1 r) u = ix2 r u := funext fun a => Fin.ext (by
    match a with
    | ⟨0, _⟩ => rfl
    | ⟨1, _⟩ => rfl)
  rw [hl]
  show ((((IntOp.cmpi .ne (x (ix2 r u)) 0#32).setWidth 32).toInt : ℝ) : EReal) = _
  unfold ind
  rw [toInt_setWidth_bit]

/-- The quotient at `(r, e)`. -/
theorem quotient_apply (s : FVec Ideal S512x256 .f32) (cnt : FVec Ideal S512x1 .f32) (r : Fin 512) (e : Fin 256) :
    k0_pay6 (F := Ideal) s cnt (ix2 r e) = Ideal.div (s (ix2 r e)) (cnt (ix2 r (0 : Fin 1)) + eps) := by
  unfold k0_pay6
  refine (divf_apply _ _ _).trans (congrArg (Ideal.div (s (ix2 r e))) ?_)
  refine (Cert.LibKeepdims.broadcastTo_a1_ab_apply _ _ r e).trans ?_
  rfl

/-- A row block's quotient after four steps onto zero, at `(r, e)`: the four chunk sums added in order onto zero,
    over the four chunk counts added in order onto zero plus the constant. -/
theorem chain_apply (x0 x1 x2 x3 : Vec Ideal S512x4096 .i32) (e0 e1 e2 e3 : FVec Ideal S4096x256 .bf16)
    (r : Fin 512) (e : Fin 256) :
    k0_pay6 (F := Ideal) (k0_pay4 x3 e3 (k0_pay4 x2 e2 (k0_pay4 x1 e1 (k0_pay4 x0 e0 (k0_pay1 (F := Ideal))))))
        (k0_pay5 x3 (k0_pay5 x2 (k0_pay5 x1 (k0_pay5 x0 (k0_pay2 (F := Ideal)))))) (ix2 r e)
      = Ideal.div
          ((((0 + ∑ u : Fin 4096, ind (x0 (ix2 r u)) * e0 (ix2 u e)) + ∑ u : Fin 4096, ind (x1 (ix2 r u)) * e1 (ix2 u e))
              + ∑ u : Fin 4096, ind (x2 (ix2 r u)) * e2 (ix2 u e)) + ∑ u : Fin 4096, ind (x3 (ix2 r u)) * e3 (ix2 u e))
          (((((0 + ∑ u : Fin 4096, ind (x0 (ix2 r u))) + ∑ u : Fin 4096, ind (x1 (ix2 r u)))
              + ∑ u : Fin 4096, ind (x2 (ix2 r u))) + ∑ u : Fin 4096, ind (x3 (ix2 r u))) + eps) := by
  rw [quotient_apply, sumsStep_apply, sumsStep_apply, sumsStep_apply, sumsStep_apply, zeroSums_apply,
    countStep_apply, countStep_apply, countStep_apply, countStep_apply, zeroCount_apply]

end Cert.KernelIdeal.PointValue

end
-- ==== Proof.Blocks.lean ====
/-
  Where the blocks met at a grid point sit in the argument arrays.

  Point `t` is chunk `t % 4` of row block `t / 4`. Its block of words is rows `512·(t/4) …`, columns `4096·(t%4) …` of the
  words table. The embedding table is resident whole (after a change of float format on the host, the identity on
  extended reals); the 4096 rows the body loads at the point are rows `4096·(t%4) …` of it. The output block of a row
  block is rows `512·(t/4) …`, all 256 columns.
-/
import proofs.«169096_j24008867184743_2_alg».proof.Proof.Found
import proofs.«169096_j24008867184743_2_alg».proof.Proof.Spec
import Idealize.ShloMosaic.Lib.StableHlo.Run
import Idealize.ShloMosaic.Lib.ValueIdx

noncomputable section

open Idealize.ShloMosaic Idealize.ShloMosaic.TcCoe Idealize.SL.Sem

namespace Cert.KernelIdeal.Blocks

open Cert.KernelIdeal Cert.KernelIdeal.Gen Cert.KernelIdeal.Found Idealize.ShloMosaic.ValueIdx Cert.Spec

variable (m : (ℓ : Loc nD τ sig) → Buf (Elt Ideal) ℓ)

/-- The block indices of the three windows and the chunk coordinate at every grid point, decided over the grid. -/
theorem placement : ∀ t : Fin cfg0.N, win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0
    ∧ ((grid0.coords t) (1 : Fin 2)).val = t.val % 4 :=
  (by decide +kernel : ∀ t : Fin grid0.N, win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0
    ∧ ((grid0.coords t) (1 : Fin 2)).val = t.val % 4)

/-- Entry `(r, u)` of the words block met at point `t` is entry `(512·(t/4) + r, 4096·(t%4) + u)` of the words table. -/
theorem words_apply (c : Dev nD) (t : Fin cfg0.N) (r : Fin 512) (u : Fin 4096) (j : S8192x16384.Idx)
    (h0 : (j 0).val = 512 * (t.val / 4) + r.val) (h1 : (j 1).val = 4096 * (t.val % 4) + u.val) :
    (iblk m c 0 t : Vec Ideal S512x4096 .i32) (ix2 r u) = m ((c : Thread nD τ).loc main_arg0) j := by
  obtain ⟨e0, e1, -⟩ := placement t
  show V m c main_arg0 (((cfg0.win 0).blk t).view.emb (ix2 r u)) = _
  rw [V_main_arg0]
  refine congrArg _ (funext fun a => Fin.ext ?_)
  match a with
  | ⟨0, _⟩ => show win0_0.index t (0 : Fin 2) * 512 + 1 * r.val = (j 0).val; omega
  | ⟨1, _⟩ => show win0_0.index t (1 : Fin 2) * 4096 + 1 * u.val = (j 1).val; omega

/-- The table as the region finds it — the host's change of float format applied to the argument — is the argument
    itself over the extended reals. -/
theorem table_entry (c : Dev nD) : (V m c main_v0 : S16384x256.Idx → EReal) = m ((c : Thread nD τ).loc main_arg1) := by
  have e : (V m c main_v0 : S16384x256.Idx → EReal)
      = truncf (F := Ideal) .bf16 (m ((c : Thread nD τ).loc main_arg1)) bitsLt_bf16_f32 := by
    dsimp only [Gen.V, Gen.hostOps0]; after_results
  rw [e]
  rfl

/-- Entry `(u, e)` of the table rows loaded at point `t` is entry `(4096·(t%4) + u, e)` of the embedding table. -/
theorem rows_apply (c : Dev nD) (t : Fin cfg0.N) (u : Fin 4096) (e : Fin 256) (j : S16384x256.Idx)
    (h0 : (j 0).val = 4096 * (t.val % 4) + u.val) (h1 : (j 1).val = e.val) :
    (tableRows (grid0.coords t) (iblk m c 1 t) : Vec Ideal S4096x256 .bf16) (ix2 u e) = m ((c : Thread nD τ).loc main_arg1) j := by
  obtain ⟨-, -, e2, e3, -, -, e6⟩ := placement t
  have ho0 : k0_off1 (grid0.coords t) 0 = 4096 * ((grid0.coords t) (1 : Fin 2)).val := by rw [k0_off1_eq]; rfl
  have ho1 : k0_off1 (grid0.coords t) 1 = 0 := by rw [k0_off1_eq]; rfl
  show V m c main_v0 (((cfg0.win 1).blk t).view.emb
      ((Rect.unit (s := S16384x256) (k0_off1 (grid0.coords t)) S4096x256.size (Gen.k0_off1_inb (grid0.coords t))).idx (ix2 u e))) = _
  rw [table_entry]
  refine congrArg _ (funext fun a => Fin.ext ?_)
  match a with
  | ⟨0, _⟩ =>
    show win0_1.index t (0 : Fin 2) * 16384 + 1 * (k0_off1 (grid0.coords t) 0 + 1 * u.val) = (j 0).val
    omega
  | ⟨1, _⟩ =>
    show win0_1.index t (1 : Fin 2) * 256 + 1 * (k0_off1 (grid0.coords t) 1 + 1 * e.val) = (j 1).val
    omega

end Cert.KernelIdeal.Blocks

end
-- ==== Proof.KernelValue.lean ====
/-
  The kernel's result array is the specification of its two arguments.

  Row block `q` of the result is written once, at the last of the block's four grid points, with the quotient of the
  two four-step chains (Carried). Read at `(r, e)` the chains are the four chunk sums added in order onto zero
  (PointValue), chunk `k` ranging over rows `512·q + r`, columns `4096·k …` of the words table and rows `4096·k …` of the
  embedding table (Blocks). A sum over all 16384 columns is the sum of its four chunks added in order onto zero
  (`Spec.sum_chunks`), so the block written is the block of `meanEmbed`. The sixteen blocks written tile the array.
-/
import proofs.«169096_j24008867184743_2_alg».proof.Proof.Carried
import proofs.«169096_j24008867184743_2_alg».proof.Proof.PointValue
import proofs.«169096_j24008867184743_2_alg».proof.Proof.Blocks
import proofs.«169096_j24008867184743_2_alg».proof.Proof.Gen.KernelIdeal.Value

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Found Cert.KernelIdeal.Carried Cert.KernelIdeal.PointValue
  Cert.KernelIdeal.Blocks Idealize.ShloMosaic.ValueIdx Cert.Spec

variable (m : (ℓ : Loc nD τ sig) → Buf (Elt Ideal) ℓ) (ρ : Dev nD → PrngReg)

/-- The words met at point `4q + k`, at `(r, u)`: row `512·q + r`, entry `u` of chunk `k`. -/
theorem words_at (c : Dev nD) (tv : ℕ) (ht : tv < cfg0.N) (q : ℕ) (k : Fin 4) (hq : tv = 4 * q + k.val)
    (r : Fin 512) (u : Fin 4096) (b : Fin 8192) (hb : b.val = 512 * q + r.val) :
    words m c ⟨tv, ht⟩ (ix2 r u) = (m ((c : Thread nD τ).loc main_arg0)) (ix2 b (chunkIdx k u)) :=
  words_apply m c ⟨tv, ht⟩ r u (ix2 b (chunkIdx k u))
    (by show b.val = 512 * (tv / 4) + r.val; have := k.isLt; omega)
    (by show 4096 * k.val + u.val = 4096 * (tv % 4) + u.val; have := k.isLt; omega)

/-- The table rows met at point `4q + k`, at `(u, e)`: entry `u` of chunk `k`, column `e`. -/
theorem rows_at (c : Dev nD) (tv : ℕ) (ht : tv < cfg0.N) (q : ℕ) (k : Fin 4) (hq : tv = 4 * q + k.val)
    (u : Fin 4096) (e : Fin 256) :
    rows m c ⟨tv, ht⟩ (ix2 u e) = (m ((c : Thread nD τ).loc main_arg1)) (ix2 (chunkIdx k u) e) :=
  rows_apply m c ⟨tv, ht⟩ u e (ix2 (chunkIdx k u) e)
    (by show 4096 * k.val + u.val = 4096 * (tv % 4) + u.val; have := k.isLt; omega)
    rfl

/-- The quotient of a row block's two chains, at `(r, e)`, is `meanEmbed` at row `512·(n/4) + r`, column `e`. -/
theorem block_entry (c : Dev nD) (n : ℕ) (h : n + 1 + 1 + 1 < cfg0.N) (h0 : n % 4 = 0) (r : Fin 512) (e : Fin 256)
    (b : Fin 8192) (hb : b.val = 512 * (n / 4) + r.val) :
    k0_pay6 (blockSums m c n h) (blockCount m c n h) (ix2 r e) = meanEmbed (m ((c : Thread nD τ).loc main_arg0)) (m ((c : Thread nD τ).loc main_arg1)) (ix2 b e) := by
  unfold blockSums blockCount
  refine (chain_apply (words m c ⟨n, Nat.lt_of_succ_lt (Nat.lt_of_succ_lt (Nat.lt_of_succ_lt h))⟩) (words m c ⟨n + 1, Nat.lt_of_succ_lt (Nat.lt_of_succ_lt h)⟩) (words m c ⟨n + 1 + 1, Nat.lt_of_succ_lt h⟩) (words m c ⟨n + 1 + 1 + 1, h⟩)
    (rows m c ⟨n, Nat.lt_of_succ_lt (Nat.lt_of_succ_lt (Nat.lt_of_succ_lt h))⟩) (rows m c ⟨n + 1, Nat.lt_of_succ_lt (Nat.lt_of_succ_lt h)⟩) (rows m c ⟨n + 1 + 1, Nat.lt_of_succ_lt h⟩) (rows m c ⟨n + 1 + 1 + 1, h⟩) r e).trans ?_
  rw [meanEmbed_apply, sum_chunks (fun v => ind ((m ((c : Thread nD τ).loc main_arg0)) (ix2 b v)) * (m ((c : Thread nD τ).loc main_arg1)) (ix2 v e)),
    sum_chunks (fun v => ind ((m ((c : Thread nD τ).loc main_arg0)) (ix2 b v)))]
  have w0 : ∀ u, words m c ⟨n, Nat.lt_of_succ_lt (Nat.lt_of_succ_lt (Nat.lt_of_succ_lt h))⟩ (ix2 r u) = (m ((c : Thread nD τ).loc main_arg0)) (ix2 b (chunkIdx 0 u)) :=
    fun u => words_at m c n _ (n / 4) 0 (by show n = 4 * (n / 4) + 0; omega) r u b hb
  have w1 : ∀ u, words m c ⟨n + 1, Nat.lt_of_succ_lt (Nat.lt_of_succ_lt h)⟩ (ix2 r u) = (m ((c : Thread nD τ).loc main_arg0)) (ix2 b (chunkIdx 1 u)) :=
    fun u => words_at m c (n + 1) _ (n / 4) 1 (by show n + 1 = 4 * (n / 4) + 1; omega) r u b hb
  have w2 : ∀ u, words m c ⟨n + 1 + 1, Nat.lt_of_succ_lt h⟩ (ix2 r u) = (m ((c : Thread nD τ).loc main_arg0)) (ix2 b (chunkIdx 2 u)) :=
    fun u => words_at m c (n + 1 + 1) _ (n / 4) 2 (by show n + 1 + 1 = 4 * (n / 4) + 2; omega) r u b hb
  have w3 : ∀ u, words m c ⟨n + 1 + 1 + 1, h⟩ (ix2 r u) = (m ((c : Thread nD τ).loc main_arg0)) (ix2 b (chunkIdx 3 u)) :=
    fun u => words_at m c (n + 1 + 1 + 1) _ (n / 4) 3 (by show n + 1 + 1 + 1 = 4 * (n / 4) + 3; omega) r u b hb
  have r0 : ∀ u, rows m c ⟨n, Nat.lt_of_succ_lt (Nat.lt_of_succ_lt (Nat.lt_of_succ_lt h))⟩ (ix2 u e) = (m ((c : Thread nD τ).loc main_arg1)) (ix2 (chunkIdx 0 u) e) :=
    fun u => rows_at m c n _ (n / 4) 0 (by show n = 4 * (n / 4) + 0; omega) u e
  have r1 : ∀ u, rows m c ⟨n + 1, Nat.lt_of_succ_lt (Nat.lt_of_succ_lt h)⟩ (ix2 u e) = (m ((c : Thread nD τ).loc main_arg1)) (ix2 (chunkIdx 1 u) e) :=
    fun u => rows_at m c (n + 1) _ (n / 4) 1 (by show n + 1 = 4 * (n / 4) + 1; omega) u e
  have r2 : ∀ u, rows m c ⟨n + 1 + 1, Nat.lt_of_succ_lt h⟩ (ix2 u e) = (m ((c : Thread nD τ).loc main_arg1)) (ix2 (chunkIdx 2 u) e) :=
    fun u => rows_at m c (n + 1 + 1) _ (n / 4) 2 (by show n + 1 + 1 = 4 * (n / 4) + 2; omega) u e
  have r3 : ∀ u, rows m c ⟨n + 1 + 1 + 1, h⟩ (ix2 u e) = (m ((c : Thread nD τ).loc main_arg1)) (ix2 (chunkIdx 3 u) e) :=
    fun u => rows_at m c (n + 1 + 1 + 1) _ (n / 4) 3 (by show n + 1 + 1 + 1 = 4 * (n / 4) + 3; omega) u e
  simp only [w0, w1, w2, w3, r0, r1, r2, r3]

/-- An index of the result array is in point `t`'s output block iff each coordinate is in the block's range. -/
theorem mem_blk (t : Fin cfg0.N) (i : S8192x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v1).slice (win0_2.rect t)).set ↔ _
  rw [View.set_slice_whole, Rect.mem_set_unit]
  exact Iff.rfl

/-- The output window's blocks lie whole inside the array: the part of a block a write-back moves is the block. -/
theorem cut_apply (t : Fin cfg0.N) (B : Vec Ideal S512x256 .f32) (y : S512x256.Idx) :
    (cfg0.win 2).cut (grid0.coords t) B y = B y := rfl

/-- An array read through point `t`'s output block, at `y`, is the array at the block's `y`-th index. -/
theorem blk_read_apply (t : Fin cfg0.N) (G : S8192x256.Idx → EReal) (y : S512x256.Idx) :
    ((cfg0.win 2).blk t).view.read (Elt Ideal) G y = G (((cfg0.win 2).blk t).view.emb y) := rfl

/-- What a writing point writes back is its block of `meanEmbed` of the arguments. -/
theorem flushed_eq (c : Dev nD) (t : Fin cfg0.N) (hf : (cfg0.win 2).flush t = true) :
    (dats m 0 c).flushed 2 t = ((cfg0.win 2).blk t).view.read (Elt Ideal) (meanEmbed (m ((c : Thread nD τ).loc main_arg0)) (m ((c : Thread nD τ).loc main_arg1))) := by
  have h3 : t.val % 4 = 3 := (flush0_2 t).mp hf
  obtain ⟨tv, ht⟩ := t
  obtain ⟨n, rfl⟩ : ∃ n, tv = n + 1 + 1 + 1 := ⟨tv - 3, by dsimp only at h3; omega⟩
  have h0 : n % 4 = 0 := by dsimp only at h3; omega
  have hN : n + 1 + 1 + 1 < 64 := lt_of_lt_of_eq ht N_0
  obtain ⟨-, -, -, -, e4, e5, -⟩ := placement ⟨n + 1 + 1 + 1, ht⟩
  show (cfg0.win 2).cut (grid0.coords ⟨n + 1 + 1 + 1, ht⟩) ((dats m 0 c).after 2 ⟨n + 1 + 1 + 1, ht⟩) = _
  rw [after0_2]
  show (cfg0.win 2).cut (grid0.coords ⟨n + 1 + 1 + 1, ht⟩) (outsAt0 m c (n + 1 + 1 + 1) ht).1 = _
  rw [block_written m c n ht h0]
  funext j
  obtain ⟨r, e, rfl⟩ : ∃ (r : Fin 512) (e : Fin 256), j = ix2 r e := ⟨j 0, j 1, eq_ix2 j⟩
  refine (cut_apply ⟨n + 1 + 1 + 1, ht⟩ (k0_pay6 (blockSums m c n ht) (blockCount m c n ht)) (ix2 r e)).trans ?_
  refine Eq.trans ?_ (blk_read_apply ⟨n + 1 + 1 + 1, ht⟩ (meanEmbed (m ((c : Thread nD τ).loc main_arg0)) (m ((c : Thread nD τ).loc main_arg1))) (ix2 r e)).symm
  have hb : 512 * (n / 4) + r.val < 8192 := by have := r.isLt; omega
  rw [block_entry m c n ht h0 r e ⟨512 * (n / 4) + r.val, hb⟩ rfl]
  refine congrArg _ (funext fun a => Fin.ext ?_)
  match a with
  | ⟨0, _⟩ =>
    show 512 * (n / 4) + r.val = win0_2.index ⟨n + 1 + 1 + 1, ht⟩ (0 : Fin 2) * 512 + 1 * r.val
    rw [e4]; show 512 * (n / 4) + r.val = (n + 1 + 1 + 1) / 4 * 512 + 1 * r.val; omega
  | ⟨1, _⟩ =>
    show e.val = win0_2.index ⟨n + 1 + 1 + 1, ht⟩ (1 : Fin 2) * 256 + 1 * e.val
    rw [e5]; omega

/-- Every index of the result array lies in the output block of the last point of its row block. -/
theorem cover (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have ht : 4 * ((i 0).val / 512) + 3 < cfg0.N := lt_of_lt_of_eq (by omega : 4 * ((i 0).val / 512) + 3 < 64) N_0.symm
  obtain ⟨-, -, -, -, e4, e5, -⟩ := placement ⟨4 * ((i 0).val / 512) + 3, ht⟩
  refine ⟨⟨4 * ((i 0).val / 512) + 3, ht⟩, (flush0_2 _).mpr (by show (4 * ((i 0).val / 512) + 3) % 4 = 3; omega), ?_⟩
  rw [mem_blk]
  intro a
  match a with
  | ⟨0, _⟩ =>
    show win0_2.index ⟨4 * ((i 0).val / 512) + 3, ht⟩ (0 : Fin 2) * 512 ≤ (i 0).val
      ∧ (i 0).val < win0_2.index ⟨4 * ((i 0).val / 512) + 3, ht⟩ (0 : Fin 2) * 512 + 512
    rw [e4]; show (4 * ((i 0).val / 512) + 3) / 4 * 512 ≤ (i 0).val ∧ (i 0).val < (4 * ((i 0).val / 512) + 3) / 4 * 512 + 512
    omega
  | ⟨1, _⟩ =>
    show win0_2.index ⟨4 * ((i 0).val / 512) + 3, ht⟩ (1 : Fin 2) * 256 ≤ (i 1).val
      ∧ (i 1).val < win0_2.index ⟨4 * ((i 0).val / 512) + 3, ht⟩ (1 : Fin 2) * 256 + 256
    rw [e5]; omega

/-- The result array after the run. -/
theorem final (c : Dev nD) : (dats m 0 c).arrAt 2 cfg0.N = meanEmbed (m ((c : Thread nD τ).loc main_arg0)) (m ((c : Thread nD τ).loc main_arg1)) :=
  (dats m 0 c).arrAt_eq_of_cover 2 (meanEmbed (m ((c : Thread nD τ).loc main_arg0)) (m ((c : Thread nD τ).loc main_arg1))) (flushed_eq m c) cover

/-- Every weakly fair execution of the kernel's program ends with the result array at `meanEmbed` of the arguments, the
    arguments unchanged. -/
theorem run : θ_run defs (onTc (τ := τ) (main (F := Ideal))) ⟨m, fun _ => 0, ρ⟩ fun r => ∀ c : Dev nD,
      r.2.mem ((c : Thread nD τ).loc main_v1) = meanEmbed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Result

end
-- ==== Proof.RefValue.lean ====
/-
  The reference computes the specification.

  Its stages, read at an index `(b, e)`: the comparison with zero and its conversion give the indicator of a nonzero
  word; the matrix product is `∑ v, ind X[b, v] · E[v, e]`; the row sum of the indicators, from zero, kept as a column,
  plus the constant, broadcast along `e`, is the divisor; the quotient is the result.
-/
import proofs.«169096_j24008867184743_2_alg».proof.Proof.Gen.ReferenceIdeal.Read
import proofs.«169096_j24008867184743_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- The reference's last stage is `meanEmbed` of the two arguments. -/
theorem result_eq (X : (⟨S8192x16384, .i32⟩ : BufTy).Contents (Elt Ideal)) (E : (⟨S16384x256, .f32⟩ : BufTy).Contents (Elt Ideal)) :
    val_main_v9 (F := Ideal) X E = meanEmbed X E := by
  funext i
  obtain ⟨b, e, rfl⟩ : ∃ (b : Fin 8192) (e : Fin 256), i = ix2 b e := ⟨i 0, i 1, eq_ix2 i⟩
  have el : ∀ k, lidx_main_v3 (ix2 b e) k = ix2 b k := fun k => funext fun a => Fin.ext (by
    match a with | ⟨0, _⟩ => rfl | ⟨1, _⟩ => rfl)
  have er : ∀ k, ridx_main_v3 (ix2 b e) k = ix2 k e := fun k => funext fun a => Fin.ext (by
    match a with | ⟨0, _⟩ => rfl | ⟨1, _⟩ => rfl)
  have e4 : ∀ k, idx_main_v4 (idx_main_v5 (idx_main_v8 (ix2 b e))) k = ix2 b k := fun k => funext fun a => Fin.ext (by
    match a with | ⟨0, _⟩ => rfl | ⟨1, _⟩ => rfl)
  rw [meanEmbed_apply, val_main_v9_apply, val_main_v3_apply, val_main_v8_apply, val_main_v7_apply, val_main_v5_apply,
    val_main_v4_apply, val_main_v6_apply, val_main_cst_0_apply, val_main_cst_apply]
  simp only [el, er, e4, val_main_v2_apply, val_main_v1_apply, val_main_v0_apply, val_main_c_apply,
    Ideal.hostDivf_def, Ideal.addf_def, Ideal.ofBits_def, Ideal.ofBits_zero_f32, zero_add]
  rfl

end Cert.ReferenceIdeal.RefValue

end
-- ==== Proof.lean ====
/-
  The kernel and its reference compute one function of the words table `X` [8192, 16384] and the embedding table
  `E` [16384, 256]: with `ind w` the indicator of a nonzero word,

      (b, e) ↦ (∑ v, ind X[b, v] · E[v, e]) / ((∑ v, ind X[b, v]) + ε).

  The reference forms the two sums over all 16384 columns at once. The kernel visits each block of 512 rows at four grid
  points, one per chunk of 4096 columns, adding each chunk's partial sums onto two accumulators that start at zero, and
  writes the quotient at the fourth. Over the extended reals addition is commutative and associative, so the four chunk
  sums added in order onto zero are the whole sum, whatever the entries: the precondition is not used.

  Proof/Spec        the function, and the chunked-sum law
  Proof/Found       what each control case of the body leaves in the accumulators and the output block
  Proof/Carried     the accumulators from point to point; a row block's output as a four-step chain
  Proof/PointValue  the body's arithmetic at an index, over the extended reals
  Proof/Blocks      where the blocks met at a point sit in the argument arrays
  Proof/KernelValue the kernel's result array is the function of its arguments
  Proof/RefValue    the reference's result is the function of its arguments
-/
import proofs.«169096_j24008867184743_2_alg».proof.Defs
import proofs.«169096_j24008867184743_2_alg».proof.Proof.Gen.Kernel
import proofs.«169096_j24008867184743_2_alg».proof.Proof.Gen.Kernel.Skeleton
import proofs.«169096_j24008867184743_2_alg».proof.Proof.Gen.Kernel.Launch
import proofs.«169096_j24008867184743_2_alg».proof.Proof.Gen.Kernel.Points
import proofs.«169096_j24008867184743_2_alg».proof.Proof.Gen.Kernel.Frame
import proofs.«169096_j24008867184743_2_alg».proof.Proof.Gen.KernelIdeal
import proofs.«169096_j24008867184743_2_alg».proof.Proof.Gen.KernelIdeal.Skeleton
import proofs.«169096_j24008867184743_2_alg».proof.Proof.Gen.KernelIdeal.Launch
import proofs.«169096_j24008867184743_2_alg».proof.Proof.Gen.KernelIdeal.Points
import proofs.«169096_j24008867184743_2_alg».proof.Proof.Gen.KernelIdeal.Frame
import proofs.«169096_j24008867184743_2_alg».proof.Proof.Gen.ReferenceIdeal
import proofs.«169096_j24008867184743_2_alg».proof.Proof.Gen.Pre_finite_inputs
import proofs.«169096_j24008867184743_2_alg».proof.Proof.Gen.KernelIdeal.Value
import proofs.«169096_j24008867184743_2_alg».proof.Proof.Gen.ReferenceIdeal.Run
import proofs.«169096_j24008867184743_2_alg».proof.Proof.Gen.ReferenceIdeal.Read
import proofs.«169096_j24008867184743_2_alg».proof.Proof.KernelValue
import proofs.«169096_j24008867184743_2_alg».proof.Proof.RefValue
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the two arguments, the kernel's result array and the reference's both end at `meanEmbed`
    of the arguments. -/
theorem algebraic : Cert.algebraic_KernelIdeal_ReferenceIdeal := by
  intro m ρ m' ρ' _ hagree
  refine ⟨fun c => Cert.Spec.meanEmbed (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
